-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x512 : Shape := ⟨3, ![16, 1024, 512]⟩
abbrev S_ : Shape := ⟨0, ![]⟩

class Facts : Prop where
  bcast_S_S16x1024x512 : S_.BroadcastsInDim S16x1024x512 (![] : Fin 0 → Fin S16x1024x512.rank)
  reducesTo_S16x1024x512_S_d0_1_2 : S16x1024x512.ReducesTo [0, 1, 2] S_
  h_S_ : 0 < S_.numel

variable [Facts]

def fn {F : FTy → Type} [FloatOps F] (main_arg0 : FVec F S16x1024x512 .f32) (main_arg1 : FVec F S16x1024x512 .f32) (main_arg2 : FVec F S16x1024x512 .f32) : IVec S_ 1 :=
  let main_v0 : FVec F S16x1024x512 .f32 := Host.absf main_arg0
  let main_cst : FVec F S_ .f32 := constant S_ .f32 0x7F800000#32
  let main_v1 : FVec F S16x1024x512 .f32 := broadcastInDim S16x1024x512 ![] bcast_S_S16x1024x512 main_cst
  let main_v2 : IVec S16x1024x512 1 := cmpf .olt main_v0 main_v1
  let main_c : IVec S_ 1 := constantI S_ 1 1#1
  let main_v3 : IVec S_ 1 := (fun x v => Host.reduce IntOp.andi x v reducesTo_S16x1024x512_S_d0_1_2 h_S_) main_v2 main_c
  let main_v4 : FVec F S16x1024x512 .f32 := Host.absf main_arg1
  let main_cst_0 : FVec F S_ .f32 := constant S_ .f32 0x7F800000#32
  let main_v5 : FVec F S16x1024x512 .f32 := broadcastInDim S16x1024x512 ![] bcast_S_S16x1024x512 main_cst_0
  let main_v6 : IVec S16x1024x512 1 := cmpf .olt main_v4 main_v5
  let main_c_1 : IVec S_ 1 := constantI S_ 1 1#1
  let main_v7 : IVec S_ 1 := (fun x v => Host.reduce IntOp.andi x v reducesTo_S16x1024x512_S_d0_1_2 h_S_) main_v6 main_c_1
  let main_v8 : IVec S_ 1 := andi main_v3 main_v7
  let main_v9 : FVec F S16x1024x512 .f32 := Host.absf main_arg2
  let main_cst_2 : FVec F S_ .f32 := constant S_ .f32 0x7F800000#32
  let main_v10 : FVec F S16x1024x512 .f32 := broadcastInDim S16x1024x512 ![] bcast_S_S16x1024x512 main_cst_2
  let main_v11 : IVec S16x1024x512 1 := cmpf .olt main_v9 main_v10
  let main_c_3 : IVec S_ 1 := constantI S_ 1 1#1
  let main_v12 : IVec S_ 1 := (fun x v => Host.reduce IntOp.andi x v reducesTo_S16x1024x512_S_d0_1_2 h_S_) main_v11 main_c_3
  let main_v13 : IVec S_ 1 := andi main_v8 main_v12
  main_v13
-- ==== Kernel.lean ====
abbrev S16x1024x512 : Shape := ⟨3, ![16, 1024, 512]⟩
abbrev S1x1024x512 : Shape := ⟨3, ![1, 1024, 512]⟩
abbrev S1024x512 : Shape := ⟨2, ![1024, 512]⟩
abbrev S1x256x512 : Shape := ⟨3, ![1, 256, 512]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S16x1024x512, .f32⟩
  | .hbm, ⟨1, _⟩ => ⟨S16x1024x512, .f32⟩
  | .hbm, ⟨2, _⟩ => ⟨S16x1024x512, .f32⟩
  | .hbm, ⟨3, _⟩ => ⟨S16x1024x512, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | .local _ .vmem, ⟨7, _⟩ => ⟨S1x1024x512, .f32⟩
  | _, _ => ⟨S16x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c256_i32 : BitVec 32 := 256#32
  let v6 : BitVec 32 := Scalar.muli c0_i32 c256_i32
  v6
def k0_off1 (c0_i32 : BitVec 32) : Fin 3 → Nat :=
  let c0_5 : Index := 0#32
  let c256_i32 : BitVec 32 := 256#32
  let v6 : BitVec 32 := Scalar.muli c0_i32 c256_i32
  let v7 : BitVec 32 := v6
  let v8 : Index := Scalar.indexCast v7
  let c0_6 : Index := 0#32
  ![0, v8.toNat, 0]
def k0_mult2 : BitVec 32 :=
  let c1_i32 : BitVec 32 := 1#32
  let c256_i32_12 : BitVec 32 := 256#32
  let v28 : BitVec 32 := Scalar.muli c1_i32 c256_i32_12
  v28
def k0_mult3 : BitVec 32 :=
  let c2_i32 : BitVec 32 := 2#32
  let c256_i32_21 : BitVec 32 := 256#32
  let v50 : BitVec 32 := Scalar.muli c2_i32 c256_i32_21
  v50
def k0_mult4 : BitVec 32 :=
  let c3_i32 : BitVec 32 := 3#32
  let c256_i32_30 : BitVec 32 := 256#32
  let v72 : BitVec 32 := Scalar.muli c3_i32 c256_i32_30
  v72
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  h_S1x256x512 : 0 < S1x256x512.numel
  shapeCasts_S1x256x512_S256x512 : S1x256x512.ShapeCasts S256x512
  reduces_S256x1024_S256 : S256x1024.Reduces [1] S256
  shapeCasts_S256_S256x1 : S256.ShapeCasts S256x1
  broadcasts_S256x1_S256x1024 : S256x1.Broadcasts S256x1024
  broadcasts_S256x1_S256x512 : S256x1.Broadcasts S256x512
  shapeCasts_S256x512_S1x256x512 : S256x512.ShapeCasts S1x256x512
  dot_S256x512_S1024x512_S256x1024_1_1_0_0_n_n_wf : DotDims.WF S256x512 S1024x512 S256x1024 [1] [1] [0] [0] [] []
  dot_S256x1024_S1024x512_S256x512_1_0_0_1_n_n_wf : DotDims.WF S256x1024 S1024x512 S256x512 [1] [0] [0] [1] [] []
  hrank0 : 0 < grid0.rank
  k0_mult1_dvd : 256 ∣ k0_mult1.toNat
  k0_off1_inb : ∀ (r : Fin 4), ∀ a, (k0_off1 (BitVec.ofNat 32 r.val)) a + S1x256x512.size a ≤ S1x1024x512.size a
  k0_mult2_dvd : 256 ∣ k0_mult2.toNat
  k0_mult3_dvd : 256 ∣ k0_mult3.toNat
  k0_mult4_dvd : 256 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S16x1024x512.size a
  hwx0_0 : ∀ i : grid0.Coords, EltTy.bits .f32 = 32 ∨ (Rect.block (s := S16x1024x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S16x1024x512.size a
  hwx0_1 : ∀ i : grid0.Coords, EltTy.bits .f32 = 32 ∨ (Rect.block (s := S16x1024x512) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S16x1024x512.size a
  hwx0_2 : ∀ i : grid0.Coords, EltTy.bits .f32 = 32 ∨ (Rect.block (s := S16x1024x512) S1x1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x512.size a ≤ S16x1024x512.size a
  hwx0_3 : ∀ i : grid0.Coords, EltTy.bits .f32 = 32 ∨ (Rect.block (s := S16x1024x512) S1x1024x512.size (cc0_transform_3 i) (hinb0_3 i)).WholeWords (EltTy.packing .f32)

variable [Facts₀]

def dot_S256x512_S1024x512_S256x1024_1_1_0_0_n_n : DotDims S256x512 S1024x512 S256x1024 where
  lhsContracting := [1]
  rhsContracting := [1]
  lhsNonContracting := [0]
  rhsNonContracting := [0]
  lhsBatch := []
  rhsBatch := []
  wf := dot_S256x512_S1024x512_S256x1024_1_1_0_0_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x1024x512 : Shape := ⟨3, ![16, 1024, 512]⟩
abbrev S16x1024x1024 : Shape := ⟨3, ![16, 1024, 1024]⟩
abbrev S_ : Shape := ⟨0, ![]⟩
abbrev S16x1024 : Shape := ⟨2, ![16, 1024]⟩
abbrev S16x1024x1 : Shape := ⟨3, ![16, 1024, 1]⟩

abbrev nBuf : Space → Nat
  | .hbm => 22
  | .vmem => 0
  | .smem => 0
  | _ => 0

abbrev bufTy : (tb : Table) → Fin (tcTables nBuf tb) → BufTy
  | .hbm, ⟨0, _⟩ => ⟨S16x1024x512, .f32⟩
  | .hbm, ⟨1, _⟩ => ⟨S16x1024x512, .f32⟩
  | .hbm, ⟨2, _⟩ => ⟨S16x1024x512, .f32⟩
  | .hbm, ⟨3, _⟩ => ⟨S16x1024x1024, .f32⟩
  | .hbm, ⟨4, _⟩ => ⟨S_, .f32⟩
  | .hbm, ⟨5, _⟩ => ⟨S16x1024x1024, .f32⟩
  | .hbm, ⟨6, _⟩ => ⟨S16x1024x1024, .f32⟩
  | .hbm, ⟨7, _⟩ => ⟨S_, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024x1, .f32⟩
  | .hbm, ⟨13, _⟩ => ⟨S16x1024x1024, .f32⟩
  | .hbm, ⟨14, _⟩ => ⟨S16x1024x1024, .f32⟩
  | .hbm, ⟨15, _⟩ => ⟨S16x1024x1024, .f32⟩
  | .hbm, ⟨16, _⟩ => ⟨S_, .f32⟩
  | .hbm, ⟨17, _⟩ => ⟨S16x1024, .f32⟩
  | .hbm, ⟨18, _⟩ => ⟨S16x1024x1, .f32⟩
  | .hbm, ⟨19, _⟩ => ⟨S16x1024x1024, .f32⟩
  | .hbm, ⟨20, _⟩ => ⟨S16x1024x1024, .f32⟩
  | .hbm, ⟨21, _⟩ => ⟨S16x1024x512, .f32⟩
  | _, _ => ⟨S16x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S16x1024x1024 : S_.BroadcastsInDim S16x1024x1024 (![] : Fin 0 → Fin S16x1024x1024.rank)
  reducesTo_S16x1024x1024_S16x1024_d2 : S16x1024x1024.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  dot_S16x1024x512_S16x1024x512_S16x1024x1024_2_2_1_1_0_0_wf : DotDims.WF S16x1024x512 S16x1024x512 S16x1024x1024 [2] [2] [1] [1] [0] [0]
  dot_S16x1024x1024_S16x1024x512_S16x1024x512_2_1_1_2_0_0_wf : DotDims.WF S16x1024x1024 S16x1024x512 S16x1024x512 [2] [1] [1] [2] [0] [0]

variable [Facts₀]

def dot_S16x1024x512_S16x1024x512_S16x1024x1024_2_2_1_1_0_0 : DotDims S16x1024x512 S16x1024x512 S16x1024x1024 where
  lhsContracting := [2]
  rhsContracting := [2]
  lhsNonContracting := [1]
  rhsNonContracting := [1]
  lhsBatch := [0]
  rhsBatch := [0]
  wf := dot_S16x1024x512_S16x1024x512_S16x1024x1024_2_2_1_1_0_0_wf
def dot_S16x1024x1024_S16x1024x512_S16x1024x512_2_1_1_2_0_0 : DotDims S16x1024x1024 S16x1024x512 S16x1024x512 where
  lhsContracting := [2]
  rhsContracting := [1]
  lhsNonContracting := [1]
  rhsNonContracting := [2]
  lhsBatch := [0]
  rhsBatch := [0]
  wf := dot_S16x1024x1024_S16x1024x512_S16x1024x512_2_1_1_2_0_0_wf

class Facts : Prop extends Facts₀ where

variable [Facts]
-- ==== Proof.LibAttnRow.lean ====
/-
  One row of softmax attention over the extended reals, in the two arrangements the two programs use, and the law
  that joins them.

  For one query row, with scores s k (the row's inner product with key row k) and values v k (one column of the
  value rows), let M be the maximum of the scores and w k = exp (s k - M) the weights.

    fused:  (∑ k, w k * v k) / (∑ k, w k)       — weights applied first, ONE division by the total weight;
    plain:  ∑ k, (w k / (0 + ∑ j, w j)) * v k    — each weight normalised first (the scores divided by 1 and the
            maximum taken once more against its own starting value on the way).

  Moving the division across the sum is a distributive law, and it fails at infinities; where the scores and the
  values are real numbers and the row is not empty every quantity above is real and the total weight is at least
  e⁰ = 1 > 0, so the two agree (`plain_eq_fused`).
-/
import Idealize.ShloMosaic.PureOps.Ideal
import Idealize.ShloMosaic.PureOps.Ideal.Laws
import Mathlib.Data.Finset.Fold

noncomputable section

namespace Cert.LibAttnRow

open Idealize.ShloMosaic

variable {X n : ℕ}

/-- The score of key row `k`: the inner product of the query row with it. -/
def score (q : Fin X → EReal) (K : Fin n → Fin X → EReal) (k : Fin n) : EReal := ∑ x : Fin X, q x * K k x

/-- The maximum of the scores, folded from `init`. -/
def top (init : EReal) (s : Fin n → EReal) : EReal := (Finset.univ : Finset (Fin n)).fold max init s

/-- The weight of key row `k` against the maximum `M`. -/
def weight (M : EReal) (s : Fin n → EReal) (k : Fin n) : EReal := Ideal.exp (s k - M)

/-- Weights applied to the values first, then one division by the total weight. -/
def fused (init : EReal) (s v : Fin n → EReal) : EReal :=
  Ideal.div (∑ k : Fin n, weight (top init s) s k * v k) (∑ k : Fin n, weight (top init s) s k)

/-- The scores divided by `one`; the maximum taken against `init` once more; each weight divided by `zero` plus the
    total weight; then applied to the values. -/
def plain (init one zero : EReal) (s v : Fin n → EReal) : EReal :=
  ∑ k : Fin n,
    Ideal.div (weight (max init (top init fun j => Ideal.div (s j) one)) (fun j => Ideal.div (s j) one) k)
        (zero + ∑ k' : Fin n, weight (max init (top init fun j => Ideal.div (s j) one)) (fun j => Ideal.div (s j) one) k')
      * v k

/-! ## Real numbers inside the extended reals -/

/-- A finite sum of real numbers, taken in the extended reals, is the real sum. -/
theorem coe_sum {ι : Type*} (t : Finset ι) (f : ι → ℝ) : (∑ k ∈ t, (f k : EReal)) = ((∑ k ∈ t, f k : ℝ) : EReal) := by
  classical
  induction t using Finset.induction_on with
  | empty => simp
  | insert a t ha ih => rw [Finset.sum_insert ha, Finset.sum_insert ha, ih, EReal.coe_add]

/-- Division by one changes nothing, at the infinities too. -/
theorem div_one (x : EReal) : Ideal.div x 1 = x := by
  rw [← EReal.coe_one, Ideal.div_coe one_ne_zero, one_div, inv_one, EReal.coe_one, mul_one]

/-- An inner product of real rows is real. -/
theorem score_real (q : Fin X → EReal) (K : Fin n → Fin X → EReal) (hq : ∀ x, ∃ r : ℝ, q x = r)
    (hK : ∀ k x, ∃ r : ℝ, K k x = r) (k : Fin n) : ∃ r : ℝ, score q K k = r := by
  choose q' hq' using hq
  choose K' hK' using hK
  refine ⟨∑ x : Fin X, q' x * K' k x, ?_⟩
  unfold score
  rw [← coe_sum]
  exact Finset.sum_congr rfl fun x _ => by rw [hq' x, hK' k x, EReal.coe_mul]

/-- The maximum of a non-empty row of real numbers, folded from -∞, is real. -/
theorem top_real (hn : 0 < n) (s : Fin n → ℝ) : ∃ M : ℝ, top ⊥ (fun k => (s k : EReal)) = M := by
  have hbot : top ⊥ (fun k => (s k : EReal)) ≠ ⊥ := by
    have h : ((s ⟨0, hn⟩ : ℝ) : EReal) ≤ top ⊥ (fun k => (s k : EReal)) :=
      (Finset.le_fold_max _).mpr (Or.inr ⟨⟨0, hn⟩, Finset.mem_univ _, le_rfl⟩)
    exact fun e => absurd (e ▸ h) (not_le.mpr (EReal.bot_lt_coe _))
  have htop : top ⊥ (fun k => (s k : EReal)) ≠ ⊤ :=
    ne_of_lt ((Finset.fold_max_lt _).mpr ⟨bot_lt_top, fun k _ => EReal.coe_lt_top _⟩)
  exact ⟨_, (EReal.coe_toReal htop hbot).symm⟩

/-! ## The law -/

/-- Over real scores and values, for a non-empty row, normalising each weight before applying it to the values is
    applying the weights and dividing once. -/
theorem plain_eq_fused_real (hn : 0 < n) (s v : Fin n → ℝ) :
    plain ⊥ 1 0 (fun k => (s k : EReal)) (fun k => (v k : EReal))
      = fused ⊥ (fun k => (s k : EReal)) (fun k => (v k : EReal)) := by
  obtain ⟨M, hM⟩ := top_real hn s
  have hw : ∀ k, weight (M : EReal) (fun k => (s k : EReal)) k = ((Real.exp (s k - M) : ℝ) : EReal) := fun k => by
    unfold weight; rw [← EReal.coe_sub, Ideal.exp_coe]
  have hLpos : 0 < ∑ k : Fin n, Real.exp (s k - M) :=
    Finset.sum_pos (fun k _ => Real.exp_pos _) ⟨⟨0, hn⟩, Finset.mem_univ _⟩
  have hL : (∑ k : Fin n, Real.exp (s k - M)) ≠ 0 := hLpos.ne'
  unfold plain fused
  simp only [div_one]
  rw [max_eq_right bot_le, hM]
  simp only [hw]
  rw [zero_add, coe_sum, Ideal.div_coe hL]
  have e1 : ∀ k : Fin n, Ideal.div ((Real.exp (s k - M) : ℝ) : EReal) ((∑ k : Fin n, Real.exp (s k - M) : ℝ) : EReal) * (v k : EReal)
      = ((Real.exp (s k - M) * (1 / ∑ k : Fin n, Real.exp (s k - M)) * v k : ℝ) : EReal) := fun k => by
    rw [Ideal.div_coe hL, ← EReal.coe_mul, ← EReal.coe_mul]
  have e2 : ∀ k : Fin n, ((Real.exp (s k - M) : ℝ) : EReal) * (v k : EReal) = ((Real.exp (s k - M) * v k : ℝ) : EReal) :=
    fun k => (EReal.coe_mul _ _).symm
  simp only [e1, e2]
  rw [coe_sum, coe_sum, ← EReal.coe_mul, Finset.sum_mul]
  exact congrArg _ (Finset.sum_congr rfl fun k _ => by ring)

/-- The same with the three constants and the rows given as extended reals known to be those values. -/
theorem plain_eq_fused {init one zero : EReal} (hi : init = ⊥) (ho : one = 1) (hz : zero = 0) (hn : 0 < n)
    (s v : Fin n → EReal) (hs : ∀ k, ∃ r : ℝ, s k = r) (hv : ∀ k, ∃ r : ℝ, v k = r) :
    plain init one zero s v = fused init s v := by
  choose s' hs' using hs
  choose v' hv' using hv
  obtain rfl : s = fun k => (s' k : EReal) := funext hs'
  obtain rfl : v = fun k => (v' k : EReal) := funext hv'
  subst hi ho hz
  exact plain_eq_fused_real hn s' v'

/-! ## The three words the programs spell these constants with -/

theorem ofBits_neg_inf : Ideal.ofBits .f32 0xFF800000#32 = ⊥ := by simp [Ideal.ofBits, Ideal.ieee]

theorem ofBits_one : Ideal.ofBits .f32 0x3F800000#32 = 1 := by
  simp [Ideal.ofBits, Ideal.ieee]
  rw [← EReal.coe_mul]
  norm_num

end Cert.LibAttnRow

end
-- ==== Proof.LibAttnArray.lean ====
/-
  Softmax attention of a batch of query, key and value arrays, element by element, in the two arrangements.

  For query rows Q[b, q, ·], key rows K[b, k, ·] and value rows V[b, k, ·], the element (b, q, d) of the result is one
  row of attention (LibAttnRow.lean): the scores of query row (b, q) against every key row of batch b, and column d of that
  batch's value rows. `fusedArr` divides once by the total weight; `plainArr` normalises each weight first. Where
  all three arrays hold real numbers they are the same array (`plainArr_eq_fusedArr`).
-/
import proofs.«133997_j90022514524673_2_alg».proof.Proof.LibAttnRow
import Idealize.ShloMosaic.Lib.ValueIdx

noncomputable section

namespace Cert.LibAttnArray

open Idealize.ShloMosaic Idealize.ShloMosaic.ValueIdx

variable {B Lq Lk X Dv : ℕ}

/-- The scores of query row (b, q) against the key rows of batch b. -/
def scores (Q : (⟨3, ![B, Lq, X]⟩ : Shape).Idx → EReal) (K : (⟨3, ![B, Lk, X]⟩ : Shape).Idx → EReal)
    (b : Fin B) (q : Fin Lq) : Fin Lk → EReal :=
  Cert.LibAttnRow.score (fun x : Fin X => Q (ix3 b q x)) (fun (k : Fin Lk) (x : Fin X) => K (ix3 b k x))

/-- Column d of the value rows of batch b. -/
def column (V : (⟨3, ![B, Lk, Dv]⟩ : Shape).Idx → EReal) (b : Fin B) (d : Fin Dv) : Fin Lk → EReal :=
  fun k => V (ix3 b k d)

/-- Element (b, q, d), one division by the total weight. -/
def fusedAt (init : EReal) (Q : (⟨3, ![B, Lq, X]⟩ : Shape).Idx → EReal) (K : (⟨3, ![B, Lk, X]⟩ : Shape).Idx → EReal)
    (V : (⟨3, ![B, Lk, Dv]⟩ : Shape).Idx → EReal) (b : Fin B) (q : Fin Lq) (d : Fin Dv) : EReal :=
  Cert.LibAttnRow.fused init (scores Q K b q) (column V b d)

/-- Element (b, q, d), each weight normalised first. -/
def plainAt (init one zero : EReal) (Q : (⟨3, ![B, Lq, X]⟩ : Shape).Idx → EReal) (K : (⟨3, ![B, Lk, X]⟩ : Shape).Idx → EReal)
    (V : (⟨3, ![B, Lk, Dv]⟩ : Shape).Idx → EReal) (b : Fin B) (q : Fin Lq) (d : Fin Dv) : EReal :=
  Cert.LibAttnRow.plain init one zero (scores Q K b q) (column V b d)

/-- The whole result, one division per element. -/
def fusedArr (init : EReal) (Q : (⟨3, ![B, Lq, X]⟩ : Shape).Idx → EReal) (K : (⟨3, ![B, Lk, X]⟩ : Shape).Idx → EReal)
    (V : (⟨3, ![B, Lk, Dv]⟩ : Shape).Idx → EReal) : (⟨3, ![B, Lq, Dv]⟩ : Shape).Idx → EReal :=
  fun i => fusedAt init Q K V (i 0) (i 1) (i 2)

/-- The whole result, each weight normalised first. -/
def plainArr (init one zero : EReal) (Q : (⟨3, ![B, Lq, X]⟩ : Shape).Idx → EReal) (K : (⟨3, ![B, Lk, X]⟩ : Shape).Idx → EReal)
    (V : (⟨3, ![B, Lk, Dv]⟩ : Shape).Idx → EReal) : (⟨3, ![B, Lq, Dv]⟩ : Shape).Idx → EReal :=
  fun i => plainAt init one zero Q K V (i 0) (i 1) (i 2)

theorem fusedArr_ix3 (init : EReal) (Q : (⟨3, ![B, Lq, X]⟩ : Shape).Idx → EReal) (K : (⟨3, ![B, Lk, X]⟩ : Shape).Idx → EReal)
    (V : (⟨3, ![B, Lk, Dv]⟩ : Shape).Idx → EReal) (b : Fin B) (q : Fin Lq) (d : Fin Dv) :
    fusedArr init Q K V (ix3 b q d) = fusedAt init Q K V b q d := rfl

theorem plainArr_ix3 (init one zero : EReal) (Q : (⟨3, ![B, Lq, X]⟩ : Shape).Idx → EReal) (K : (⟨3, ![B, Lk, X]⟩ : Shape).Idx → EReal)
    (V : (⟨3, ![B, Lk, Dv]⟩ : Shape).Idx → EReal) (b : Fin B) (q : Fin Lq) (d : Fin Dv) :
    plainArr init one zero Q K V (ix3 b q d) = plainAt init one zero Q K V b q d := rfl

/-- Over arrays of real numbers, with at least one key row, the two arrangements are one array. -/
theorem plainArr_eq_fusedArr {init one zero : EReal} (hi : init = ⊥) (ho : one = 1) (hz : zero = 0) (hk : 0 < Lk)
    (Q : (⟨3, ![B, Lq, X]⟩ : Shape).Idx → EReal) (K : (⟨3, ![B, Lk, X]⟩ : Shape).Idx → EReal)
    (V : (⟨3, ![B, Lk, Dv]⟩ : Shape).Idx → EReal)
    (hQ : ∀ i, ∃ r : ℝ, Q i = r) (hK : ∀ i, ∃ r : ℝ, K i = r) (hV : ∀ i, ∃ r : ℝ, V i = r) :
    plainArr init one zero Q K V = fusedArr init Q K V :=
  funext fun i => Cert.LibAttnRow.plain_eq_fused hi ho hz hk _ _
    (Cert.LibAttnRow.score_real _ _ (fun x => hQ _) (fun k x => hK _))
    (fun k => hV _)

end Cert.LibAttnArray

end
-- ==== Proof.LibMatmulAt.lean ====
/-
  A plain matrix product read at an element.

  A contraction whose dimension numbers are those of an [R, K] × [K, C] matrix product (the left operand contracted on
  its axis 1, the right on its axis 0, no batch axis), accumulated into the zero splat, read at the element (p, q) is
  ∑ k, l(p, k) * r(k, q) over the extended reals. The statement is over ANY record of dimension numbers with those six
  lists, so that it applies to every record of that kind a program names, whatever its extents.
-/
import Idealize.ShloMosaic.PureOps.Ideal.Laws
import Idealize.ShloMosaic.Lib.ValueIdx

noncomputable section

namespace Cert.LibMatmulAt

open Idealize.ShloMosaic Idealize.ShloMosaic.ValueIdx

/-- The dimension numbers of an [R, K] × [K, C] matrix product, with its well-formedness proof a variable: every record
    with those six lists is this one. -/
abbrev plainOf {R K C : ℕ}
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ :=
  ⟨[1], [0], [0], [1], [], [], wf⟩

/-- The sum over the one-axis contraction index, re-indexed by that axis's coordinate, reads the left operand at (p, k)
    and the right operand at (k, q). -/
theorem plainOf_sum {R K C : ℕ} (wf : DotDims.WF ⟨2, ![R, K]⟩ ⟨2, ![K, C]⟩ ⟨2, ![R, C]⟩ [1] [0] [0] [1] [] [])
    (l : (⟨2, ![R, K]⟩ : Shape).Idx → EReal) (r : (⟨2, ![K, C]⟩ : Shape).Idx → EReal) (p : Fin R) (q : Fin C) :
    (∑ k : (plainOf wf).contr.Idx, l ((plainOf wf).lhsIdx (ix2 p q) k) * r ((plainOf wf).rhsIdx (ix2 p q) k))
      = ∑ k : Fin K, l (ix2 p k) * r (ix2 k q) := by
  have l0 : ∀ kk : (plainOf wf).contr.Idx, ((plainOf wf).lhsIdx (ix2 p q) kk 0).val = p.val := fun kk => by
    unfold DotDims.lhsIdx
    rw [dif_neg (show ¬(0 : Fin (⟨2, ![R, K]⟩ : Shape).rank) ∈ (plainOf wf).lhsBatch from List.not_mem_nil),
      dif_pos (show (0 : Fin (⟨2, ![R, K]⟩ : Shape).rank) ∈ (plainOf wf).lhsNonContracting from List.mem_singleton.mpr rfl)]
    rfl
  have r1 : ∀ kk : (plainOf wf).contr.Idx, ((plainOf wf).rhsIdx (ix2 p q) kk 1).val = q.val := fun kk => by
    unfold DotDims.rhsIdx
    rw [dif_neg (show ¬(1 : Fin (⟨2, ![K, C]⟩ : Shape).rank) ∈ (plainOf wf).rhsBatch from List.not_mem_nil),
      dif_pos (show (1 : Fin (⟨2, ![K, C]⟩ : Shape).rank) ∈ (plainOf wf).rhsNonContracting from List.mem_singleton.mpr rfl)]
    rfl
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 p q) ((contrEquiv1 (plainOf wf) K rfl rfl).symm k) = ix2 p k :=
    funext fun a => Fin.ext (by
      match a with
      | ⟨0, _⟩ => exact l0 _
      | ⟨1, _⟩ => exact ((plainOf wf).lhsIdx_val_of_single rfl _ _).trans hk)
  have er : (plainOf wf).rhsIdx (ix2 p q) ((contrEquiv1 (plainOf wf) K rfl rfl).symm k) = ix2 k q :=
    funext fun a => Fin.ext (by
      match a with
      | ⟨0, _⟩ => exact ((plainOf wf).rhsIdx_val_of_single rfl _ _).trans hk
      | ⟨1, _⟩ => exact r1 _)
  rw [el, er]

/-- A matrix product into the zero accumulator, for any record of dimension numbers with the six lists of an
    [R, K] × [K, C] product, read at (p, q): the sum over k of the left operand at (p, k) times the right at (k, q). -/
theorem matmul_zero_apply {R K C : ℕ} {φ₁ φ₂ : FTy} (D : DotDims ⟨2, ![R, K]⟩ ⟨2, ![K, C]⟩ ⟨2, ![R, C]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![R, K]⟩ φ₁) (r : FVec Ideal ⟨2, ![K, C]⟩ φ₂)
    (p : Fin R) (q : Fin C) :
    matmul D prec l r (constant (F := Ideal) ⟨2, ![R, C]⟩ .f32 0x00000000#32) (ix2 p q)
      = ∑ k : Fin K, l (ix2 p k) * r (ix2 k q) := by
  obtain ⟨lc, rc, ln, rn, lb, rb, wf⟩ := D
  dsimp only at hlc hrc hln hrn hlb hrb
  subst hlc hrc hln hrn hlb hrb
  exact (Ideal.matmul_constant_zero_apply (plainOf wf) prec l r (ix2 p q)).trans (plainOf_sum wf l r p q)

end Cert.LibMatmulAt

end
-- ==== Proof.LibMatmulNTAt.lean ====
/-
  A matrix product with the right operand transposed, read at an element.

  A contraction whose dimension numbers are those of an [R, K] × [C, K] product (each operand contracted on its
  axis 1, no batch axis: the rows of the left operand against the ROWS of the right one, as in a table of inner
  products q·kᵀ), accumulated into the zero splat, read at the element (p, q) is ∑ k, l(p, k) * r(q, k) over the
  extended reals. The statement is over ANY record of dimension numbers with those six lists, so that it applies to
  every record of that kind a program names, whatever its extents.
-/
import Idealize.ShloMosaic.PureOps.Ideal.Laws
import Idealize.ShloMosaic.Lib.ValueIdx

noncomputable section

namespace Cert.LibMatmulNTAt

open Idealize.ShloMosaic Idealize.ShloMosaic.ValueIdx

/-- The dimension numbers of an [R, K] × [C, K] product, with its well-formedness proof a variable: every record with
    those six lists is this one. -/
abbrev rowsOf {R K C : ℕ}
    (wf : DotDims.WF ⟨2, ![R, K]⟩ ⟨2, ![C, K]⟩ ⟨2, ![R, C]⟩ [1] [1] [0] [0] [] []) :
    DotDims ⟨2, ![R, K]⟩ ⟨2, ![C, K]⟩ ⟨2, ![R, C]⟩ :=
  ⟨[1], [1], [0], [0], [], [], wf⟩

/-- The sum over the one-axis contraction index, re-indexed by that axis's coordinate, reads the left operand at (p, k)
    and the right operand at (q, k). -/
theorem rowsOf_sum {R K C : ℕ} (wf : DotDims.WF ⟨2, ![R, K]⟩ ⟨2, ![C, K]⟩ ⟨2, ![R, C]⟩ [1] [1] [0] [0] [] [])
    (l : (⟨2, ![R, K]⟩ : Shape).Idx → EReal) (r : (⟨2, ![C, K]⟩ : Shape).Idx → EReal) (p : Fin R) (q : Fin C) :
    (∑ k : (rowsOf wf).contr.Idx, l ((rowsOf wf).lhsIdx (ix2 p q) k) * r ((rowsOf wf).rhsIdx (ix2 p q) k))
      = ∑ k : Fin K, l (ix2 p k) * r (ix2 q k) := by
  have l0 : ∀ kk : (rowsOf wf).contr.Idx, ((rowsOf wf).lhsIdx (ix2 p q) kk 0).val = p.val := fun kk => by
    unfold DotDims.lhsIdx
    rw [dif_neg (show ¬(0 : Fin (⟨2, ![R, K]⟩ : Shape).rank) ∈ (rowsOf wf).lhsBatch from List.not_mem_nil),
      dif_pos (show (0 : Fin (⟨2, ![R, K]⟩ : Shape).rank) ∈ (rowsOf wf).lhsNonContracting from List.mem_singleton.mpr rfl)]
    rfl
  have r0 : ∀ kk : (rowsOf wf).contr.Idx, ((rowsOf wf).rhsIdx (ix2 p q) kk 0).val = q.val := fun kk => by
    unfold DotDims.rhsIdx
    rw [dif_neg (show ¬(0 : Fin (⟨2, ![C, K]⟩ : Shape).rank) ∈ (rowsOf wf).rhsBatch from List.not_mem_nil),
      dif_pos (show (0 : Fin (⟨2, ![C, K]⟩ : Shape).rank) ∈ (rowsOf wf).rhsNonContracting from List.mem_singleton.mpr rfl)]
    rfl
  rw [← Equiv.sum_comp (contrEquiv1 (rowsOf wf) K rfl rfl).symm]
  refine Finset.sum_congr rfl fun k _ => ?_
  have hk := contrEquiv1_symm_val (rowsOf wf) K rfl rfl k
  have el : (rowsOf wf).lhsIdx (ix2 p q) ((contrEquiv1 (rowsOf wf) K rfl rfl).symm k) = ix2 p k :=
    funext fun a => Fin.ext (by
      match a with
      | ⟨0, _⟩ => exact l0 _
      | ⟨1, _⟩ => exact ((rowsOf wf).lhsIdx_val_of_single rfl _ _).trans hk)
  have er : (rowsOf wf).rhsIdx (ix2 p q) ((contrEquiv1 (rowsOf wf) K rfl rfl).symm k) = ix2 q k :=
    funext fun a => Fin.ext (by
      match a with
      | ⟨0, _⟩ => exact r0 _
      | ⟨1, _⟩ => exact ((rowsOf wf).rhsIdx_val_of_single rfl _ _).trans hk)
  rw [el, er]

/-- A product into the zero accumulator, for any record of dimension numbers with the six lists of an
    [R, K] × [C, K] product, read at (p, q): the sum over k of the left operand at (p, k) times the right at (q, k). -/
theorem matmul_zero_apply {R K C : ℕ} {φ₁ φ₂ : FTy} (D : DotDims ⟨2, ![R, K]⟩ ⟨2, ![C, K]⟩ ⟨2, ![R, C]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (l : FVec Ideal ⟨2, ![R, K]⟩ φ₁) (r : FVec Ideal ⟨2, ![C, K]⟩ φ₂)
    (p : Fin R) (q : Fin C) :
    matmul D prec l r (constant (F := Ideal) ⟨2, ![R, C]⟩ .f32 0x00000000#32) (ix2 p q)
      = ∑ k : Fin K, l (ix2 p k) * r (ix2 q k) := by
  obtain ⟨lc, rc, ln, rn, lb, rb, wf⟩ := D
  dsimp only at hlc hrc hln hrn hlb hrb
  subst hlc hrc hln hrn hlb hrb
  exact (Ideal.matmul_constant_zero_apply (rowsOf wf) prec l r (ix2 p q)).trans (rowsOf_sum wf l r p q)

end Cert.LibMatmulNTAt

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.LibRowReduce.lean ====
/- Row reductions of a two-axis array kept as a column and repeated along the rows, read at an index over the extended reals:
   the lane sum of row p is the plain sum over the row, the lane maximum the fold of max over the row from the initial word; a
   length-a vector cast to an a × 1 column and broadcast to a × b reads, at (p, q), the vector's entry p; a 1 × 1 array broadcast
   to a × b reads its one entry everywhere. Names no program. -/
import proofs.«133997_j90022514524673_2_alg».proof.Proof.LibColumn
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRowReduce

open Idealize.ShloMosaic Idealize.ShloMosaic.ValueIdx

variable {a b : ℕ}

/-- Result index p of a reduction along the second axis, with the dropped coordinate k put back, is (p, k). -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- The lane sum of row p. -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The lane maximum of row p: max folded over the row from the initial word. -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits (F := Ideal) φ acc) (fun k => src (ix2 p k)) :=
  (Ideal.multiReduction_maximumf_single src acc h hφ hacc (ix1 p)).trans
    (congrArg (fun f => (Finset.univ : Finset (Fin b)).fold max (FloatOps.ofBits (F := Ideal) φ acc) f)
      (funext fun k => congrArg src (lift_row h p k)))

variable {α : Type}

/-- A vector kept as a column and repeated along the rows reads, at (p, q), its entry p. -/
theorem column_repeat_apply {b' : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b']⟩) (p : Fin a) (q : Fin b') :
    broadcastTo ⟨2, ![a, b']⟩ (shapeCast ⟨2, ![a, 1]⟩ v hc) hb (ix2 p q) = v (ix1 p) :=
  (Cert.LibColumn.broadcastTo_a1_ab_apply _ hb p q).trans (Cert.LibColumn.shapeCast_a_a1_apply v hc p 0)

/-- A 1 × 1 array repeated over a × b reads its one entry everywhere. -/
theorem broadcastTo_11_ab_apply (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibRowReduce

end
-- ==== Proof.KernelTile.lean ====
/-
  One tile of the kernel's body at an element.

  The body treats the 1024 query rows of a batch in four tiles of 256. For a tile `qt` of query rows, the key block
  `kb` and the value block `vb`, the stored tile at row p, column d is

      (∑ k, w k * vb(k, d)) / (∑ k, w k),    w k = exp (s k - max_j s j),    s k = ∑ x, qt(p, x) * kb(k, x):

  the scores of row p against every key row (a product with the key block's ROWS), their maximum from -∞, the weights,
  the weights applied to the value rows (a plain product), and one division by the total weight. The four stores of
  the body carry this same function of their own tile (the second store's scores and maximum are computed one part of
  the body earlier; the key and value blocks are narrowed once and shared).
-/
import proofs.«133997_j90022514524673_2_alg».proof.Proof.Gen.KernelIdeal.Skeleton
import proofs.«133997_j90022514524673_2_alg».proof.Proof.LibMatmulAt
import proofs.«133997_j90022514524673_2_alg».proof.Proof.LibMatmulNTAt
import proofs.«133997_j90022514524673_2_alg».proof.Proof.LibRowReduce
import proofs.«133997_j90022514524673_2_alg».proof.Proof.LibAttnRow
import Idealize.ShloMosaic.Lib.ValueIdx
import Idealize.ShloMosaic.Lib.ValueLayout

noncomputable section

namespace Cert.KernelIdeal.Tile

open Idealize.ShloMosaic Idealize.ShloMosaic.ValueIdx
open Cert.KernelIdeal Cert.KernelIdeal.Gen

/-! ## The four stores carry one function of their tile -/

section AnyInstance
variable {F : FTy → Type} [FloatOps F]

/-- The last store's value is the first store's function of its own tile. -/
theorem pay1_eq (kb vb : Vec F S1x1024x512 .f32) (qt : Vec F S1x256x512 .f32) :
    k0_pay1 (k0_pay2 kb) (k0_pay3 vb) qt = k0_pay4 kb vb qt := rfl

/-- The second store's value, over the scores and the maximum computed a part earlier, likewise. -/
theorem pay7_eq (kb vb : Vec F S1x1024x512 .f32) (qt : Vec F S1x256x512 .f32) :
    k0_pay7 (k0_pay3 vb) (k0_pay5 kb qt) (k0_pay6 kb qt) = k0_pay4 kb vb qt := rfl

/-- The third store's value likewise. -/
theorem pay8_eq (kb vb : Vec F S1x1024x512 .f32) (qt : Vec F S1x256x512 .f32) :
    k0_pay8 (k0_pay2 kb) (k0_pay3 vb) qt = k0_pay4 kb vb qt := rfl

end AnyInstance

/-! ## The steps of a tile, each read at an element -/

/-- The word the maximum starts from. -/
abbrev negInf : EReal := Ideal.ofBits .f32 0xFF800000#32

/-- Scores: row p of the tile against key row k. -/
theorem scores_apply (qb : FVec Ideal S256x512 .bf16) (kbb : FVec Ideal S1024x512 .bf16) (p : Fin 256) (k : Fin 1024) :
    matmul dot_S256x512_S1024x512_S256x1024_1_1_0_0_n_n none qb kbb (constant (F := Ideal) S256x1024 .f32 0x00000000#32) (ix2 p k)
      = ∑ x : Fin 512, qb (ix2 p x) * kbb (ix2 k x) :=
  Cert.LibMatmulNTAt.matmul_zero_apply dot_S256x512_S1024x512_S256x1024_1_1_0_0_n_n rfl rfl rfl rfl rfl rfl none qb kbb p k

/-- Weights applied to the value rows: row p, column d. -/
theorem applied_apply (wb : FVec Ideal S256x1024 .bf16) (vbb : FVec Ideal S1024x512 .bf16) (p : Fin 256) (d : Fin 512) :
    matmul dot_S256x1024_S1024x512_S256x512_1_0_0_1_n_n none wb vbb (constant (F := Ideal) S256x512 .f32 0x00000000#32) (ix2 p d)
      = ∑ k : Fin 1024, wb (ix2 p k) * vbb (ix2 k d) :=
  Cert.LibMatmulAt.matmul_zero_apply dot_S256x1024_S1024x512_S256x512_1_0_0_1_n_n rfl rfl rfl rfl rfl rfl none wb vbb p d

/-- The row maximum, kept as a column and repeated along the row: at (p, k), the maximum of row p from -∞. -/
theorem rowMax_repeat_apply (s : FVec Ideal S256x1024 .f32) (hφ : FKind.Formats .f32)
    (hacc : (0xFF800000#32 : BitVec 32) = FKind.maximumf.neutral .f32 hφ) (p : Fin 256) (k : Fin 1024) :
    broadcastTo S256x1024 (shapeCast S256x1 (multiReduction .maximumf [1] S256 s 0xFF800000#32 reduces_S256x1024_S256 hφ hacc)
        shapeCasts_S256_S256x1) broadcasts_S256x1_S256x1024 (ix2 p k)
      = (Finset.univ : Finset (Fin 1024)).fold max negInf (fun j => s (ix2 p j)) :=
  (Cert.LibRowReduce.column_repeat_apply _ shapeCasts_S256_S256x1 broadcasts_S256x1_S256x1024 p k).trans
    (Cert.LibRowReduce.rowMax_apply s 0xFF800000#32 reduces_S256x1024_S256 hφ hacc p)

/-- The row total, kept as a column and repeated along the output row: at (p, d), the sum of row p. -/
theorem rowSum_repeat_apply (w : FVec Ideal S256x1024 .f32) (hφ : FKind.Formats .f32)
    (hacc : (0x00000000#32 : BitVec 32) = FKind.add.neutral .f32 hφ) (p : Fin 256) (d : Fin 512) :
    broadcastTo S256x512 (shapeCast S256x1 (multiReduction .add [1] S256 w 0x00000000#32 reduces_S256x1024_S256 hφ hacc)
        shapeCasts_S256_S256x1) broadcasts_S256x1_S256x512 (ix2 p d)
      = ∑ k : Fin 1024, w (ix2 p k) :=
  (Cert.LibRowReduce.column_repeat_apply _ shapeCasts_S256_S256x1 broadcasts_S256x1_S256x512 p d).trans
    (Cert.LibRowReduce.rowSum_apply w 0x00000000#32 reduces_S256x1024_S256 hφ hacc p)

/-! ## A tile at an element -/

/-- The stored tile at (u, p, d): the fused row of attention for row p of the tile against the key and value blocks. -/
theorem pay4_apply (kb vb : Vec Ideal S1x1024x512 .f32) (qt : Vec Ideal S1x256x512 .f32) (u : Fin 1) (p : Fin 256) (d : Fin 512) :
    k0_pay4 kb vb qt (ix3 u p d)
      = Cert.LibAttnRow.fused negInf
          (Cert.LibAttnRow.score (fun x : Fin 512 => qt (ix3 (0 : Fin 1) p x)) (fun (k : Fin 1024) (x : Fin 512) => kb (ix3 (0 : Fin 1) k x)))
          (fun k : Fin 1024 => vb (ix3 (0 : Fin 1) k d)) := by
  unfold k0_pay4 k0_pay2 k0_pay3
  dsimp only
  refine (shapeCast_ab_1ab_apply _ shapeCasts_S256x512_S1x256x512 u p d).trans ?_
  refine (divf_apply _ _ (ix2 p d)).trans ?_
  unfold Cert.LibAttnRow.fused
  -- the scores of row p, as the specification writes them
  have hs : ∀ k : Fin 1024,
      matmul dot_S256x512_S1024x512_S256x1024_1_1_0_0_n_n none
          (truncf .bf16 (shapeCast S256x512 qt shapeCasts_S1x256x512_S256x512) bitsLt_bf16_f32)
          (truncf .bf16 (shapeCast S1024x512 kb shapeCasts_S1x1024x512_S1024x512) bitsLt_bf16_f32)
          (constant (F := Ideal) S256x1024 .f32 0x00000000#32) (ix2 p k)
        = Cert.LibAttnRow.score (fun x : Fin 512 => qt (ix3 (0 : Fin 1) p x)) (fun (k : Fin 1024) (x : Fin 512) => kb (ix3 (0 : Fin 1) k x)) k :=
    fun k => (scores_apply _ _ p k).trans (Finset.sum_congr rfl fun x _ => by
      rw [truncf_apply, truncf_apply, shapeCast_1ab_ab_apply, shapeCast_1ab_ab_apply])
  -- the weights of row p
  have hw : ∀ k : Fin 1024,
      exp (subf
          (matmul dot_S256x512_S1024x512_S256x1024_1_1_0_0_n_n none
            (truncf .bf16 (shapeCast S256x512 qt shapeCasts_S1x256x512_S256x512) bitsLt_bf16_f32)
            (truncf .bf16 (shapeCast S1024x512 kb shapeCasts_S1x1024x512_S1024x512) bitsLt_bf16_f32)
            (constant (F := Ideal) S256x1024 .f32 0x00000000#32))
          (broadcastTo S256x1024 (shapeCast S256x1 (multiReduction .maximumf [1] S256
            (matmul dot_S256x512_S1024x512_S256x1024_1_1_0_0_n_n none
              (truncf .bf16 (shapeCast S256x512 qt shapeCasts_S1x256x512_S256x512) bitsLt_bf16_f32)
              (truncf .bf16 (shapeCast S1024x512 kb shapeCasts_S1x1024x512_S1024x512) bitsLt_bf16_f32)
              (constant (F := Ideal) S256x1024 .f32 0x00000000#32))
            0xFF800000#32 reduces_S256x1024_S256 (.inl rfl) rfl) shapeCasts_S256_S256x1) broadcasts_S256x1_S256x1024)) (ix2 p k)
        = Cert.LibAttnRow.weight (Cert.LibAttnRow.top negInf
              (Cert.LibAttnRow.score (fun x : Fin 512 => qt (ix3 (0 : Fin 1) p x)) (fun (k : Fin 1024) (x : Fin 512) => kb (ix3 (0 : Fin 1) k x))))
            (Cert.LibAttnRow.score (fun x : Fin 512 => qt (ix3 (0 : Fin 1) p x)) (fun (k : Fin 1024) (x : Fin 512) => kb (ix3 (0 : Fin 1) k x))) k :=
    fun k => by
      show Ideal.exp (_ - _) = _
      unfold Cert.LibAttnRow.weight Cert.LibAttnRow.top
      rw [hs k, rowMax_repeat_apply _ (.inl rfl) rfl p k]
      simp only [hs]
  refine congrArg₂ Ideal.div ?_ ?_
  · refine (applied_apply _ _ p d).trans (Finset.sum_congr rfl fun k _ => ?_)
    rw [truncf_apply, truncf_apply, shapeCast_1ab_ab_apply, hw k]
  · refine (rowSum_repeat_apply _ (.inl rfl) rfl p d).trans (Finset.sum_congr rfl fun k _ => hw k)

end Cert.KernelIdeal.Tile

end
-- ==== Proof.KernelBlock.lean ====
/-
  What one grid point leaves in the output block: attention of the point's three blocks.

  The body fills the output's 1024-row block by four stores of 256 rows, at rows 0, 256, 512 and 768. Each store's value
  is the tile function (KernelTile.lean) of the query rows it covers, against the whole key and value blocks; row
  o + p of the block is therefore row p of the store at offset o, and all four stores are restrictions of ONE function
  of the block index: the fused attention of the query block, the key block and the value block (a batch of one).
-/
import proofs.«133997_j90022514524673_2_alg».proof.Proof.Gen.KernelIdeal.Frame
import proofs.«133997_j90022514524673_2_alg».proof.Proof.KernelTile
import proofs.«133997_j90022514524673_2_alg».proof.Proof.LibAttnArray
import Idealize.ShloMosaic.Lib.Pipeline.Value
import Idealize.ShloMosaic.Lib.Tactic

set_option maxRecDepth 16384

noncomputable section

namespace Cert.KernelIdeal.Block

open Idealize.ShloMosaic Idealize.ShloMosaic.TcCoe Idealize.ShloMosaic.ValueIdx Idealize.SL.Sem
open Cert.KernelIdeal Cert.KernelIdeal.Gen

theorem zero3 : (![0, 0, 0] : Fin 3 → Nat) = fun _ => 0 := funext fun a => by fin_cases a <;> rfl

/-- Element (u, p, d) of a 256-row rectangle at row offset o of the block is the block's element (0, o + p, d). -/
theorem emb_rows (o : ℕ) (ho : o + 256 ≤ 1024) (inb : ∀ a, (![0, o, 0] : Fin 3 → Nat) a + (![1, 256, 512] : Fin 3 → Nat) a ≤ S1x1024x512.size a)
    (u : Fin 1) (p : Fin 256) (d : Fin 512) :
    (Rect.unit (s := S1x1024x512) ![0, o, 0] ![1, 256, 512] inb).emb (ix3 u p d)
      = ix3 (0 : Fin 1) (⟨o + p.val, by have := p.isLt; omega⟩ : Fin 1024) d := by
  funext a
  apply Fin.ext
  have hu : u.val = 0 := by omega
  match a with
  | ⟨0, _⟩ => show 0 + 1 * u.val = 0; omega
  | ⟨1, _⟩ => show o + 1 * p.val = o + p.val; omega
  | ⟨2, _⟩ => show 0 + 1 * d.val = d.val; omega

/-- The store at row offset o carries the block's function at the rows it covers. -/
theorem rows_piece (o : ℕ) (ho : o + 256 ≤ 1024) (inb : ∀ a, (![0, o, 0] : Fin 3 → Nat) a + (![1, 256, 512] : Fin 3 → Nat) a ≤ S1x1024x512.size a)
    (x0 x1 x2 : Vec Ideal S1x1024x512 .f32) (x : (Rect.unit (s := S1x1024x512) ![0, o, 0] ![1, 256, 512] inb).shape.Idx) :
    k0_pay4 x1 x2 (View.ld x0 (Rect.unit (s := S1x1024x512) ![0, o, 0] ![1, 256, 512] inb)) x
      = Cert.LibAttnArray.fusedArr Tile.negInf x0 x1 x2 ((Rect.unit (s := S1x1024x512) ![0, o, 0] ![1, 256, 512] inb).emb x) := by
  obtain ⟨u, p, d, rfl⟩ : ∃ (u : Fin 1) (p : Fin 256) (d : Fin 512), x = ix3 u p d := ⟨x 0, x 1, x 2, eq_ix3 x⟩
  rw [emb_rows o ho inb u p d, Cert.LibAttnArray.fusedArr_ix3]
  refine (Tile.pay4_apply x1 x2 _ u p d).trans ?_
  unfold Cert.LibAttnArray.fusedAt Cert.LibAttnArray.scores Cert.LibAttnArray.column
  refine congrArg (fun q : Fin 512 → EReal => Cert.LibAttnRow.fused Tile.negInf
    (Cert.LibAttnRow.score q (fun (k : Fin 1024) (x : Fin 512) => x1 (ix3 (0 : Fin 1) k x))) (fun k : Fin 1024 => x2 (ix3 (0 : Fin 1) k d)))
    (funext fun x => ?_)
  exact congrArg x0 (emb_rows o ho inb 0 p x)

/-- What the body leaves in the output's block: the fused attention of the point's query, key and value blocks. -/
theorem out_block (c : Dev nD) (i : grid0.Coords) (arg1 : Memref sig .tc .vmem S1x1024x512 .f32) (harg1 : arg1.IsWhole)
    (arg2 : Memref sig .tc .vmem S1x1024x512 .f32) (harg2 : arg2.IsWhole) (arg3 : Memref sig .tc .vmem S1x1024x512 .f32) (harg3 : arg3.IsWhole)
    (arg4 : Memref sig .tc .vmem S1x1024x512 .f32) (harg4 : arg4.IsWhole) (x0 x1 x2 : Vec Ideal S1x1024x512 .f32) :
    out0_A_3 (F := Ideal) c i arg1 harg1 arg2 harg2 arg3 harg3 arg4 harg4 x0 x1 x2
      = Cert.LibAttnArray.fusedArr Tile.negInf x0 x1 x2 := by
  unfold out0_A_3
  rw [View.read_writes_eq_canon _ _ _ (cover0_A_3 c i arg1 harg1 arg2 harg2 arg3 harg3 arg4 harg4 x0 x1 x2)]
  funext y
  refine View.canon_apply_of_pieces (Cert.LibAttnArray.fusedArr Tile.negInf x0 x1 x2) _ ?_ y
    (cover0_A_3 c i arg1 harg1 arg2 harg2 arg3 harg3 arg4 harg4 x0 x1 x2 y)
  unfold kernelRun0_A
  dsimp only
  sl_unfold_words
  simp only [View.readAt_eq_ld, harg1.read_unread, harg2.read_unread, harg3.read_unread,
    View.ld_unit_zero (S := S1x1024x512) zero3, Tile.pay1_eq, Tile.pay7_eq, Tile.pay8_eq]
  intro pc hpc
  simp only [List.mem_cons, List.not_mem_nil, or_false] at hpc
  rcases hpc with rfl | rfl | rfl | rfl
  · exact rows_piece 768 (by norm_num) _ x0 x1 x2
  · exact rows_piece 512 (by norm_num) _ x0 x1 x2
  · exact rows_piece 256 (by norm_num) _ x0 x1 x2
  · exact rows_piece 0 (by norm_num) _ x0 x1 x2

end Cert.KernelIdeal.Block

end
-- ==== Proof.KernelArray.lean ====
/-
  From blocks to the array: the kernel's result array is the fused attention of its three argument arrays.

  The grid has one point per batch. At point t every window's block is the whole [1, 1024, 512] slab of batch t of its
  array: element (u, p, x) of a block is element (t, p, x) of the array. So what point t leaves in the output block — the
  fused attention of the point's query, key and value blocks (KernelBlock.lean), a batch of one — is block t of the fused
  attention of the whole arrays, and the sixteen blocks cover the result array.
-/
import proofs.«133997_j90022514524673_2_alg».proof.Proof.Gen.KernelIdeal.Value
import proofs.«133997_j90022514524673_2_alg».proof.Proof.KernelBlock
import proofs.«133997_j90022514524673_2_alg».proof.Proof.LibAttnArray
import Idealize.ShloMosaic.Lib.Pipeline.Value

set_option maxRecDepth 16384

noncomputable section

namespace Cert.KernelIdeal.Whole

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## A batch of one inside the batch of sixteen -/

/-- Attention of three one-batch arrays that are slab `bt` of three sixteen-batch arrays is slab `bt` of the
    attention of those: element j of the former is element (bt, j 1, j 2) of the latter. -/
theorem slab_eq (init : EReal) (Q K V : S16x1024x512.Idx → EReal) (q k v : S1x1024x512.Idx → EReal) (bt : Fin 16)
    (hq : ∀ (u : Fin 1) (p : Fin 1024) (x : Fin 512), q (ix3 u p x) = Q (ix3 bt p x))
    (hk : ∀ (u : Fin 1) (p : Fin 1024) (x : Fin 512), k (ix3 u p x) = K (ix3 bt p x))
    (hv : ∀ (u : Fin 1) (p : Fin 1024) (x : Fin 512), v (ix3 u p x) = V (ix3 bt p x))
    (j : S1x1024x512.Idx) (i : S16x1024x512.Idx) (hi : ∀ (u : Fin 1) (p : Fin 1024) (d : Fin 512), j = ix3 u p d → i = ix3 bt p d) :
    Cert.LibAttnArray.fusedArr init q k v j = Cert.LibAttnArray.fusedArr init Q K V i := by
  obtain ⟨u, p, d, rfl⟩ : ∃ (u : Fin 1) (p : Fin 1024) (d : Fin 512), j = ix3 u p d := ⟨j 0, j 1, j 2, eq_ix3 j⟩
  rw [hi u p d rfl, Cert.LibAttnArray.fusedArr_ix3, Cert.LibAttnArray.fusedArr_ix3]
  unfold Cert.LibAttnArray.fusedAt Cert.LibAttnArray.scores Cert.LibAttnArray.column
  simp only [hq, hk, hv]

/-! ## The index maps -/

/-- Decided over the sixteen points: every window's block index is (the output's batch, 0, 0). -/
theorem idx_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (1 : Fin 3) = 0 ∧ win0_3.index t (2 : Fin 3) = 0 ∧ win0_3.index t (0 : Fin 3) ≤ 15 :=
  (by decide +kernel : ∀ t : Fin grid0.N, _)

/-- Every batch is some point's. -/
theorem idx_onto : ∀ q0 : Fin 16, ∃ t : Fin cfg0.N, win0_3.index t = ![q0.val, 0, 0] :=
  (by decide +kernel : ∀ q0 : Fin 16, ∃ t : Fin grid0.N, win0_3.index t = ![q0.val, 0, 0])

/-- The batch point t works on. -/
def batch (t : Fin cfg0.N) : Fin 16 := ⟨win0_3.index t (0 : Fin 3), by have := (idx_facts t).2.2.2.2.2.2.2.2.2.2.2; omega⟩

/-- Element j of input window 0's block at point t is element (batch t, j 1, j 2) of its array. -/
theorem iblk0_apply (c : Dev nD) (t : Fin cfg0.N) (u : Fin 1) (p : Fin 1024) (x : Fin 512) :
    (iblk m c 0 t : Vec Ideal S1x1024x512 .f32) (ix3 u p x) = (V m c main_arg0 : S16x1024x512.Idx → EReal) (ix3 (batch t) p x) := by
  obtain ⟨e0, e1, e2, -⟩ := idx_facts t
  have hu : u.val = 0 := by omega
  unfold iblk
  rw [View.read_apply]
  show V m c main_arg0 _ = V m c main_arg0 _
  congr 1
  funext a
  apply Fin.ext
  match a with
  | ⟨0, _⟩ => show win0_0.index t (0 : Fin 3) * 1 + 1 * u.val = win0_3.index t (0 : Fin 3); omega
  | ⟨1, _⟩ => show win0_0.index t (1 : Fin 3) * 1024 + 1 * p.val = p.val; omega
  | ⟨2, _⟩ => show win0_0.index t (2 : Fin 3) * 512 + 1 * x.val = x.val; omega

theorem iblk1_apply (c : Dev nD) (t : Fin cfg0.N) (u : Fin 1) (p : Fin 1024) (x : Fin 512) :
    (iblk m c 1 t : Vec Ideal S1x1024x512 .f32) (ix3 u p x) = (V m c main_arg1 : S16x1024x512.Idx → EReal) (ix3 (batch t) p x) := by
  obtain ⟨-, -, -, e0, e1, e2, -⟩ := idx_facts t
  have hu : u.val = 0 := by omega
  unfold iblk
  rw [View.read_apply]
  show V m c main_arg1 _ = V m c main_arg1 _
  congr 1
  funext a
  apply Fin.ext
  match a with
  | ⟨0, _⟩ => show win0_1.index t (0 : Fin 3) * 1 + 1 * u.val = win0_3.index t (0 : Fin 3); omega
  | ⟨1, _⟩ => show win0_1.index t (1 : Fin 3) * 1024 + 1 * p.val = p.val; omega
  | ⟨2, _⟩ => show win0_1.index t (2 : Fin 3) * 512 + 1 * x.val = x.val; omega

theorem iblk2_apply (c : Dev nD) (t : Fin cfg0.N) (u : Fin 1) (p : Fin 1024) (x : Fin 512) :
    (iblk m c 2 t : Vec Ideal S1x1024x512 .f32) (ix3 u p x) = (V m c main_arg2 : S16x1024x512.Idx → EReal) (ix3 (batch t) p x) := by
  obtain ⟨-, -, -, -, -, -, e0, e1, e2, -⟩ := idx_facts t
  have hu : u.val = 0 := by omega
  unfold iblk
  rw [View.read_apply]
  show V m c main_arg2 _ = V m c main_arg2 _
  congr 1
  funext a
  apply Fin.ext
  match a with
  | ⟨0, _⟩ => show win0_2.index t (0 : Fin 3) * 1 + 1 * u.val = win0_3.index t (0 : Fin 3); omega
  | ⟨1, _⟩ => show win0_2.index t (1 : Fin 3) * 1024 + 1 * p.val = p.val; omega
  | ⟨2, _⟩ => show win0_2.index t (2 : Fin 3) * 512 + 1 * x.val = x.val; omega

/-- Element (u, p, d) of the output window's block at point t sits at (batch t, p, d) of the result array. -/
theorem oblk_emb (t : Fin cfg0.N) (u : Fin 1) (p : Fin 1024) (d : Fin 512) :
    ((cfg0.win 3).blk t).view.emb (ix3 u p d) = ix3 (batch t) p d := by
  obtain ⟨-, -, -, -, -, -, -, -, -, e1, e2, -⟩ := idx_facts t
  have hu : u.val = 0 := by omega
  funext a
  apply Fin.ext
  match a with
  | ⟨0, _⟩ => show win0_3.index t (0 : Fin 3) * 1 + 1 * u.val = win0_3.index t (0 : Fin 3); omega
  | ⟨1, _⟩ => show win0_3.index t (1 : Fin 3) * 1024 + 1 * p.val = p.val; omega
  | ⟨2, _⟩ => show win0_3.index t (2 : Fin 3) * 512 + 1 * d.val = d.val; omega

/-! ## What each point writes back, and the array -/

/-- The result as one function of the argument arrays. -/
abbrev result (Q K V : S16x1024x512.Idx → EReal) : S16x1024x512.Idx → EReal :=
  Cert.LibAttnArray.fusedArr Tile.negInf Q K V

/-- What point t writes back is block t of the fused attention of the arrays as the region finds them. -/
theorem flushed_eq (c : Dev nD) (t : Fin cfg0.N) :
    (dats m 0 c).flushed 3 t
      = ((cfg0.win 3).blk t).view.read (Elt Ideal) (result (V m c main_arg0) (V m c main_arg1) (V m c main_arg2)) := by
  rw [Cert.KernelIdeal.Value.flushed3_A, Block.out_block]
  funext j
  show Cert.LibAttnArray.fusedArr Tile.negInf (iblk m c 0 t) (iblk m c 1 t) (iblk m c 2 t) j
    = Cert.LibAttnArray.fusedArr Tile.negInf (V m c main_arg0) (V m c main_arg1) (V m c main_arg2) (((cfg0.win 3).blk t).view.emb j)
  exact slab_eq Tile.negInf _ _ _ _ _ _ (batch t) (iblk0_apply m c t) (iblk1_apply m c t) (iblk2_apply m c t) j _
    (fun u p d h => by rw [h, oblk_emb])

/-- An index of the result array is in point t's block iff each coordinate is in the block's range on its axis. -/
theorem mem_blk (t : Fin cfg0.N) (i : S16x1024x512.Idx) :
    i ∈ ((cfg0.win 3).blk t).view.set ↔ ∀ a : Fin 3, win0_3.index t a * S1x1024x512.size a ≤ (i a).val
      ∧ (i a).val < win0_3.index t a * S1x1024x512.size a + S1x1024x512.size a := by
  show i ∈ ((View.whole main_v0).slice (win0_3.rect t)).set ↔ _
  rw [View.set_slice_whole, Rect.mem_set_unit]
  exact Iff.rfl

/-- The sixteen blocks cover the result array: the point for batch (i 0) covers i. -/
theorem covered (i : S16x1024x512.Idx) :
    ∃ t : Fin cfg0.N, (cfg0.win 3).flush t = true ∧ i ∈ ((cfg0.win 3).blk t).view.set := by
  have hi0 : (i 0).val < 16 := (i 0).isLt
  have hi1 : (i 1).val < 1024 := (i 1).isLt
  have hi2 : (i 2).val < 512 := (i 2).isLt
  obtain ⟨t, ht⟩ := idx_onto ⟨(i 0).val, hi0⟩
  have q0 : win0_3.index t (0 : Fin 3) = (i 0).val := congrFun ht 0
  have q1 : win0_3.index t (1 : Fin 3) = 0 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 512 ≤ (i 2).val ∧ (i 2).val < win0_3.index t (2 : Fin 3) * 512 + 512; omega

/-- The result array after the run: the fused attention of the argument arrays as launched. -/
theorem final (c : Dev nD) :
    (dats m 0 c).arrAt 3 cfg0.N
      = result (m ((c : Thread nD τ).loc main_arg0)) (m ((c : Thread nD τ).loc main_arg1)) (m ((c : Thread nD τ).loc main_arg2)) :=
  (dats m 0 c).arrAt_eq_of_cover 3 _ (fun t _ => flushed_eq m c t) covered

/-- The run, read: the result array at the fused attention of the arguments, the arguments unchanged. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Whole

end
-- ==== Proof.RefRow.lean ====
/-
  The reference program's result, element by element: the plain arrangement of softmax attention.

  Read one operation at a time: the scores of query row (b, q) against the key rows of batch b (a batched product over
  the last axis of both), each divided by the word of 1; the row maximum from -∞, taken once more against -∞; the
  weights exp (s - M); their total from the word of 0; each weight divided by the total; the weights against the value
  rows of batch b (a batched product). At (b, q, d) this is `LibAttnArray.plainAt` of the three argument arrays.
-/
import proofs.«133997_j90022514524673_2_alg».proof.Proof.Gen.ReferenceIdeal.Read
import proofs.«133997_j90022514524673_2_alg».proof.Proof.LibAttnArray
import Idealize.ShloMosaic.Lib.ValueIdx
import Idealize.ShloMosaic.PureOps.Ideal.Laws

noncomputable section

namespace Cert.ReferenceIdeal.RefRow

open Idealize.ShloMosaic Idealize.ShloMosaic.ValueIdx
open Cert.ReferenceIdeal Cert.ReferenceIdeal.Gen Cert.ReferenceIdeal.Read

/-- The three words the program spells its constants with. -/
abbrev negInf : EReal := Ideal.ofBits .f32 0xFF800000#32
abbrev one : EReal := Ideal.ofBits .f32 0x3F800000#32
abbrev zero : EReal := Ideal.ofBits .f32 0x00000000#32

variable (x0 x1 x2 : (⟨S16x1024x512, .f32⟩ : BufTy).Contents (Elt Ideal))

/-! ## Where each operation reads its operands -/

theorem lidx0 (b : Fin 16) (q k : Fin 1024) (x : Fin 512) : lidx_main_v0 (ix3 b q k) x = ix3 b q x :=
  funext fun a => Fin.ext (by match a with | ⟨0, _⟩ => rfl | ⟨1, _⟩ => rfl | ⟨2, _⟩ => rfl)

theorem ridx0 (b : Fin 16) (q k : Fin 1024) (x : Fin 512) : ridx_main_v0 (ix3 b q k) x = ix3 b k x :=
  funext fun a => Fin.ext (by match a with | ⟨0, _⟩ => rfl | ⟨1, _⟩ => rfl | ⟨2, _⟩ => rfl)

theorem idx76 (b : Fin 16) (q k : Fin 1024) : idx_main_v6 (idx_main_v7 (ix3 b q k)) = ix2 b q :=
  funext fun a => Fin.ext (by match a with | ⟨0, _⟩ => rfl | ⟨1, _⟩ => rfl)

theorem idx1211 (b : Fin 16) (q k : Fin 1024) : idx_main_v11 (idx_main_v12 (ix3 b q k)) = ix2 b q :=
  funext fun a => Fin.ext (by match a with | ⟨0, _⟩ => rfl | ⟨1, _⟩ => rfl)

theorem idx10 (b : Fin 16) (q k : Fin 1024) : idx_main_v10 (ix2 b q) k = ix3 b q k :=
  funext fun a => Fin.ext (by match a with | ⟨0, _⟩ => rfl | ⟨1, _⟩ => rfl | ⟨2, _⟩ => rfl)

theorem lidx14 (b : Fin 16) (q : Fin 1024) (d : Fin 512) (k : Fin 1024) : lidx_main_v14 (ix3 b q d) k = ix3 b q k :=
  funext fun a => Fin.ext (by match a with | ⟨0, _⟩ => rfl | ⟨1, _⟩ => rfl | ⟨2, _⟩ => rfl)

theorem ridx14 (b : Fin 16) (q : Fin 1024) (d : Fin 512) (k : Fin 1024) : ridx_main_v14 (ix3 b q d) k = ix3 b k d :=
  funext fun a => Fin.ext (by match a with | ⟨0, _⟩ => rfl | ⟨1, _⟩ => rfl | ⟨2, _⟩ => rfl)

/-- Result index (b, q) of the reduction along the last axis, with the dropped coordinate k put back, is (b, q, k). -/
theorem lift_last (h : S16x1024x1024.Reduces [(2 : Fin 3)] S16x1024) (b : Fin 16) (q k : Fin 1024) :
    h.lift (ix2 b q) k = ix3 b q k :=
  funext fun a => Fin.ext (by match a with | ⟨0, _⟩ => rfl | ⟨1, _⟩ => rfl | ⟨2, _⟩ => rfl)

/-! ## The operations, in order -/

/-- The scores, divided by the word of 1. -/
theorem v2_at (b : Fin 16) (q k : Fin 1024) :
    val_main_v2 (F := Ideal) x0 x1 (ix3 b q k) = Ideal.div (Cert.LibAttnArray.scores x0 x1 b q k) one := by
  rw [val_main_v2_apply, val_main_v0_apply, val_main_v1_apply, val_main_cst_apply]
  simp only [lidx0, ridx0]
  rfl

/-- The host's maximum along the last axis, at (b, q): max folded over row (b, q) from the starting value. -/
theorem hostRowMax (y : FVec Ideal S16x1024x1024 .f32) (c0 : FVec Ideal S_ .f32)
    (h' : S16x1024x1024.ReducesTo [(2 : Fin 3)] S16x1024) (hu : 0 < S_.numel) (b : Fin 16) (q : Fin 1024) :
    Host.reduce FloatOps.maximumf y c0 h' hu (ix2 b q)
      = (Finset.univ : Finset (Fin 1024)).fold max (c0 (Shape.Idx.first hu)) (fun k => y (ix3 b q k)) := by
  have h : S16x1024x1024.Reduces [(2 : Fin 3)] S16x1024 := by decide
  rw [Host.reduce_eq_fold_single FloatOps.maximumf y c0 h' h hu]
  exact congrArg (fun f => (Finset.univ : Finset (Fin 1024)).fold max (c0 (Shape.Idx.first hu)) f)
    (funext fun k => congrArg y (lift_last h b q k))

/-- The row maximum, from -∞. -/
theorem v3_at (b : Fin 16) (q : Fin 1024) :
    val_main_v3 (F := Ideal) x0 x1 (ix2 b q)
      = Cert.LibAttnRow.top negInf (fun k => Ideal.div (Cert.LibAttnArray.scores x0 x1 b q k) one) := by
  unfold val_main_v3
  rw [hostRowMax]
  unfold Cert.LibAttnRow.top
  simp only [v2_at]
  rfl

/-- The maximum as the weights see it: taken once more against -∞, kept as a column, repeated along the row. -/
theorem v7_at (b : Fin 16) (q k : Fin 1024) :
    val_main_v7 (F := Ideal) x0 x1 (ix3 b q k)
      = max negInf (Cert.LibAttnRow.top negInf (fun k => Ideal.div (Cert.LibAttnArray.scores x0 x1 b q k) one)) := by
  rw [val_main_v7_apply, val_main_v6_apply, idx76, val_main_v5_apply, val_main_v4_apply, val_main_cst_1_apply, v3_at]
  rfl

/-- The weights. -/
theorem v9_at (b : Fin 16) (q k : Fin 1024) :
    val_main_v9 (F := Ideal) x0 x1 (ix3 b q k)
      = Cert.LibAttnRow.weight (max negInf (Cert.LibAttnRow.top negInf (fun k => Ideal.div (Cert.LibAttnArray.scores x0 x1 b q k) one)))
          (fun k => Ideal.div (Cert.LibAttnArray.scores x0 x1 b q k) one) k := by
  rw [val_main_v9_apply, val_main_v8_apply, v2_at, v7_at]
  rfl

/-- The total weight, from the word of 0, kept as a column and repeated along the row. -/
theorem v12_at (b : Fin 16) (q k : Fin 1024) :
    val_main_v12 (F := Ideal) x0 x1 (ix3 b q k)
      = zero + ∑ k' : Fin 1024,
          Cert.LibAttnRow.weight (max negInf (Cert.LibAttnRow.top negInf (fun k => Ideal.div (Cert.LibAttnArray.scores x0 x1 b q k) one)))
            (fun k => Ideal.div (Cert.LibAttnArray.scores x0 x1 b q k) one) k' := by
  rw [val_main_v12_apply, val_main_v11_apply, idx1211, val_main_v10_apply, val_main_cst_2_apply]
  simp only [idx10, v9_at]
  rfl

/-- The result at (b, q, d): the plain arrangement. -/
theorem v14_at (b : Fin 16) (q : Fin 1024) (d : Fin 512) :
    val_main_v14 (F := Ideal) x0 x1 x2 (ix3 b q d) = Cert.LibAttnArray.plainAt negInf one zero x0 x1 x2 b q d := by
  rw [val_main_v14_apply]
  simp only [lidx14, ridx14, val_main_v13_apply, v9_at, v12_at]
  rfl

/-- The reference's result is the plain arrangement of attention of its three arguments. -/
theorem result_eq : val_main_v14 (F := Ideal) x0 x1 x2 = Cert.LibAttnArray.plainArr negInf one zero x0 x1 x2 := by
  funext i
  obtain ⟨b, q, d, rfl⟩ : ∃ (b : Fin 16) (q : Fin 1024) (d : Fin 512), i = ix3 b q d := ⟨i 0, i 1, i 2, eq_ix3 i⟩
  rw [v14_at, Cert.LibAttnArray.plainArr_ix3]

end Cert.ReferenceIdeal.RefRow

end
-- ==== Proof.Finite.lean ====
/-
  The precondition read back: every entry of the three argument arrays is a real number.

  The precondition is the conjunction, over the three arrays, of "every |x| is below +∞". Over the extended reals
  |x| = max x (-x) is below +∞ exactly when x is neither infinity, that is when x is a real number.
-/
import proofs.«133997_j90022514524673_2_alg».proof.Pre_finite_inputs
import proofs.«133997_j90022514524673_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal
import Idealize.ShloMosaic.PureOps.Ideal.Laws

noncomputable section

namespace Cert.Pre_finite_inputs.Finite

open Idealize.ShloMosaic Cert.Pre_finite_inputs Cert.Pre_finite_inputs.Gen

/-- The shape of a scalar has one index. -/
instance : Subsingleton S_.Idx := ⟨fun a b => funext fun d => d.elim0⟩

/-- The word the entries are compared with denotes +∞. -/
theorem ofBits_inf : Ideal.ofBits .f32 0x7F800000#32 = ⊤ := by simp [Ideal.ofBits, Ideal.ieee]

/-- An extended real whose absolute value is below +∞ is a real number. -/
theorem real_of_abs_lt_top (x y : EReal) (hy : y = ⊤) (h : Ideal.cmp .olt (max x (-x)) y = 1#1) : ∃ r : ℝ, x = r := by
  subst hy
  induction x using EReal.rec with
  | bot => simp [Ideal.cmp] at h
  | coe r => exact ⟨r, rfl⟩
  | top => simp [Ideal.cmp] at h

/-- One entry of an array whose comparison with the +∞ splat is 1 there. -/
theorem entry_real (a : FVec Ideal S16x1024x512 .f32) (hb : S_.BroadcastsInDim S16x1024x512 (![] : Fin 0 → Fin S16x1024x512.rank))
    (i : S16x1024x512.Idx)
    (h : cmpf .olt (Host.absf a) (broadcastInDim S16x1024x512 ![] hb (constant (F := Ideal) S_ .f32 0x7F800000#32)) i = 1#1) :
    ∃ r : ℝ, a i = r := by
  have e : broadcastInDim S16x1024x512 ![] hb (constant (F := Ideal) S_ .f32 0x7F800000#32) i = (⊤ : EReal) :=
    (broadcastInDim_apply ![] hb (constant (F := Ideal) S_ .f32 0x7F800000#32) i ValueIdx.ix0 fun ax => ax.elim0).trans ofBits_inf
  exact real_of_abs_lt_top (a i) _ e h

/-- Under the precondition the three argument arrays hold real numbers. -/
theorem reals_of_pre (a0 a1 a2 : FVec Ideal S16x1024x512 .f32) (h : fn (F := Ideal) a0 a1 a2 = fun _ => 1#1) :
    (∀ i, ∃ r : ℝ, a0 i = r) ∧ (∀ i, ∃ r : ℝ, a1 i = r) ∧ (∀ i, ∃ r : ℝ, a2 i = r) := by
  have h0 := congrFun h ValueIdx.ix0
  dsimp only [fn] at h0
  obtain ⟨h01, h2⟩ := IntOp.andi_eq_one.mp h0
  obtain ⟨h0', h1'⟩ := IntOp.andi_eq_one.mp h01
  exact ⟨fun i => entry_real a0 _ i (Host.reduce_andi_all _ _ _ _ _ h0' i),
    fun i => entry_real a1 _ i (Host.reduce_andi_all _ _ _ _ _ h1' i),
    fun i => entry_real a2 _ i (Host.reduce_andi_all _ _ _ _ _ h2 i)⟩

end Cert.Pre_finite_inputs.Finite

end
-- ==== Proof.lean ====
/-
  A fused attention kernel against softmax attention written with two batched products.

  Arguments: queries Q, keys K and values V, each f32[16, 1024, 512]. For batch b and query row q let
  s k = ∑ x, Q[b, q, x] * K[b, k, x] be the scores against the 1024 key rows, M their maximum and w k = exp (s k - M).

    The kernel works on one batch per grid point, 256 query rows at a time: it forms the scores of the tile against the
    key block, the row maxima, the weights, the weights applied to the value block, and divides each row ONCE by its
    total weight:                                  O[b, q, d] = (∑ k, w k * V[b, k, d]) / (∑ k, w k).
    The reference divides the scores by 1, normalises the weights and then applies them:
                                                   O[b, q, d] = ∑ k, (w k / (0 + ∑ j, w j)) * V[b, k, d].

  Over the extended reals a change of float format is the identity and each product is the exact sum, so the only
  difference is where the division stands. Under the precondition every argument entry is a real number; then the
  scores, their maximum and the weights are real, the total weight is at least exp 0 = 1, and dividing before or
  after the sum is the same (LibAttnRow.lean). The modules: LibAttnRow / LibAttnArray state both arrangements and the law;
  KernelTile, KernelBlock, KernelArray read the kernel's result array as the fused arrangement; RefRow reads the
  reference's result as the plain one; Finite reads the precondition.
-/
import proofs.«133997_j90022514524673_2_alg».proof.Defs
import proofs.«133997_j90022514524673_2_alg».proof.Proof.Gen.Kernel
import proofs.«133997_j90022514524673_2_alg».proof.Proof.Gen.Kernel.Skeleton
import proofs.«133997_j90022514524673_2_alg».proof.Proof.Gen.Kernel.Launch
import proofs.«133997_j90022514524673_2_alg».proof.Proof.Gen.Kernel.Points
import proofs.«133997_j90022514524673_2_alg».proof.Proof.Gen.Kernel.Frame
import proofs.«133997_j90022514524673_2_alg».proof.Proof.Gen.KernelIdeal
import proofs.«133997_j90022514524673_2_alg».proof.Proof.Gen.KernelIdeal.Skeleton
import proofs.«133997_j90022514524673_2_alg».proof.Proof.Gen.KernelIdeal.Launch
import proofs.«133997_j90022514524673_2_alg».proof.Proof.Gen.KernelIdeal.Points
import proofs.«133997_j90022514524673_2_alg».proof.Proof.Gen.KernelIdeal.Frame
import proofs.«133997_j90022514524673_2_alg».proof.Proof.Gen.ReferenceIdeal
import proofs.«133997_j90022514524673_2_alg».proof.Proof.Gen.Pre_finite_inputs
import proofs.«133997_j90022514524673_2_alg».proof.Proof.Gen.KernelIdeal.Value
import proofs.«133997_j90022514524673_2_alg».proof.Proof.Gen.ReferenceIdeal.Run
import proofs.«133997_j90022514524673_2_alg».proof.Proof.Gen.ReferenceIdeal.Read
import proofs.«133997_j90022514524673_2_alg».proof.Proof.LibAttnArray
import proofs.«133997_j90022514524673_2_alg».proof.Proof.KernelArray
import proofs.«133997_j90022514524673_2_alg».proof.Proof.RefRow
import proofs.«133997_j90022514524673_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From arguments that agree and hold real numbers, the kernel's result array (the fused arrangement) and the
    reference's (the plain one) are the same array. -/
theorem algebraic : Cert.algebraic_KernelIdeal_ReferenceIdeal := by
  intro m ρ m' ρ' hpre hagree
  refine ⟨fun c => Cert.KernelIdeal.Whole.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefRow.result_eq,
    (hagree c).1, (hagree c).2.1, (hagree c).2.2]
  obtain ⟨h0, h1, h2⟩ := Cert.Pre_finite_inputs.Finite.reals_of_pre _ _ _ (hpre c)
  exact Cert.LibAttnArray.plainArr_eq_fusedArr Cert.LibAttnRow.ofBits_neg_inf Cert.LibAttnRow.ofBits_one Ideal.ofBits_zero_f32
    (by norm_num) _ _ _ h0 h1 h2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
